-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S25000x64 : Shape := ⟨2, ![25000, 64]⟩
abbrev S850000x64 : Shape := ⟨2, ![850000, 64]⟩
abbrev S1x64 : Shape := ⟨2, ![1, 64]⟩
abbrev S1x1 : Shape := ⟨2, ![1, 1]⟩
abbrev S50000x1 : Shape := ⟨2, ![50000, 1]⟩

abbrev nBuf : Space → Nat
  | .hbm => 85
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S850000, .i32⟩
  | .hbm, ⟨19, _⟩ => ⟨S850000, .i1⟩
  | .hbm, ⟨20, _⟩ => ⟨S_, .i32⟩
  | .hbm, ⟨21, _⟩ => ⟨S850000, .i32⟩
  | .hbm, ⟨22, _⟩ => ⟨S850000, .i32⟩
  | .hbm, ⟨23, _⟩ => ⟨S850000, .i32⟩
  | .hbm, ⟨24, _⟩ => ⟨S850000x1, .i32⟩
  | .hbm, ⟨25, _⟩ => ⟨S_, .f32⟩
  | .hbm, ⟨26, _⟩ => ⟨S850000, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S50000x64, .f32⟩
  | .hbm, ⟨66, _⟩ => ⟨S50000x64, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x1, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S50000x64, .f32⟩
  | .hbm, ⟨84, _⟩ => ⟨S1x1, .f32⟩
  | .local _ .vmem, ⟨0, _⟩ => ⟨S25000x64, .f32⟩
  | .local _ .vmem, ⟨1, _⟩ => ⟨S25000x64, .f32⟩
  | .local _ .vmem, ⟨2, _⟩ => ⟨S64x64, .f32⟩
  | .local _ .vmem, ⟨3, _⟩ => ⟨S25000x64, .f32⟩
  | .local _ .vmem, ⟨4, _⟩ => ⟨S25000x64, .f32⟩
  | .local _ .vmem, ⟨5, _⟩ => ⟨S25000x64, .f32⟩
  | .local _ .vmem, ⟨6, _⟩ => ⟨S25000x64, .f32⟩
  | .local _ .vmem, ⟨7, _⟩ => ⟨S64, .f32⟩
  | .local _ .vmem, ⟨8, _⟩ => ⟨S25000x64, .f32⟩
  | .local _ .vmem, ⟨9, _⟩ => ⟨S25000x64, .f32⟩
  | .local _ .vmem, ⟨10, _⟩ => ⟨S25000x64, .f32⟩
  | .local _ .vmem, ⟨11, _⟩ => ⟨S25000x64, .f32⟩
  | .local _ .vmem, ⟨12, _⟩ => ⟨S64x64, .f32⟩
  | .local _ .vmem, ⟨13, _⟩ => ⟨S25000x64, .f32⟩
  | .local _ .vmem, ⟨14, _⟩ => ⟨S25000x64, .f32⟩
  | .local _ .vmem, ⟨15, _⟩ => ⟨S25000x64, .f32⟩
  | .local _ .vmem, ⟨16, _⟩ => ⟨S25000x64, .f32⟩
  | .local _ .vmem, ⟨17, _⟩ => ⟨S64, .f32⟩
  | .local _ .vmem, ⟨18, _⟩ => ⟨S25000x64, .f32⟩
  | .local _ .vmem, ⟨19, _⟩ => ⟨S25000x64, .f32⟩
  | .local _ .vmem, ⟨20, _⟩ => ⟨S50000x64, .f32⟩
  | .local _ .vmem, ⟨21, _⟩ => ⟨S64x1, .f32⟩
  | .local _ .vmem, ⟨22, _⟩ => ⟨S1, .f32⟩
  | .local _ .vmem, ⟨23, _⟩ => ⟨S1x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S25000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S25000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S25000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S25000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S25000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S50000x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  inb_S25000x64_S25000x64_0_0 : ∀ a, (![0, 0] : Fin 2 → Nat) a + S25000x64.size a ≤ S25000x64.size a
  h_S25000x64 : 0 < S25000x64.numel
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S25000x64_S25000x64 : S25000x64.ShapeCasts S25000x64
  inb_S64_S64_0 : ∀ a, (![0] : Fin 1 → Nat) a + S64.size a ≤ S64.size a
  h_S64 : 0 < S64.numel
  shapeCasts_S64_S1x64 : S64.ShapeCasts S1x64
  broadcasts_S1x64_S25000x64 : S1x64.Broadcasts S25000x64
  inb_S50000x64_S50000x64_0_0 : ∀ a, (![0, 0] : Fin 2 → Nat) a + S50000x64.size a ≤ S50000x64.size a
  h_S50000x64 : 0 < S50000x64.numel
  shapeCasts_S50000x64_S50000x64 : S50000x64.ShapeCasts S50000x64
  inb_S64x1_S64x1_0_0 : ∀ a, (![0, 0] : Fin 2 → Nat) a + S64x1.size a ≤ S64x1.size a
  h_S64x1 : 0 < S64x1.numel
  reduces_S50000x1_S1 : S50000x1.Reduces [0] S1
  shapeCasts_S1_S1x1 : S1.ShapeCasts S1x1
  inb_S1_S1_0 : ∀ a, (![0] : Fin 1 → Nat) a + S1.size a ≤ S1.size a
  h_S1 : 0 < S1.numel
  inb_S1x1_S1x1_0_0 : ∀ a, (![0, 0] : Fin 2 → Nat) a + S1x1.size a ≤ S1x1.size a
  h_S1x1 : 0 < S1x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S25000x64_S64x64_S25000x64_1_0_0_1_n_n_wf : DotDims.WF S25000x64 S64x64 S25000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x1_S50000x1_1_0_0_1_n_n_wf : DotDims.WF S50000x64 S64x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x64.size a ≤ S50000x64.size a
  hwx0_0 : ∀ i : grid0.Coords, EltTy.bits .f32 = 32 ∨ (Rect.block (s := S50000x64) S25000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S25000x64.size a ≤ S50000x64.size a
  hwx0_2 : ∀ i : grid0.Coords, EltTy.bits .f32 = 32 ∨ (Rect.block (s := S50000x64) S25000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x64.size a ≤ S50000x64.size a
  hwx1_0 : ∀ i : grid1.Coords, EltTy.bits .f32 = 32 ∨ (Rect.block (s := S50000x64) S25000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S25000x64.size a ≤ S50000x64.size a
  hwx1_2 : ∀ i : grid1.Coords, EltTy.bits .f32 = 32 ∨ (Rect.block (s := S50000x64) S25000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25000x64.size a ≤ S50000x64.size a
  hwx2_0 : ∀ i : grid2.Coords, EltTy.bits .f32 = 32 ∨ (Rect.block (s := S50000x64) S25000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S25000x64.size a ≤ S50000x64.size a
  hwx2_2 : ∀ i : grid2.Coords, EltTy.bits .f32 = 32 ∨ (Rect.block (s := S50000x64) S25000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S25000x64.size a ≤ S50000x64.size a
  hwx3_0 : ∀ i : grid3.Coords, EltTy.bits .f32 = 32 ∨ (Rect.block (s := S50000x64) S25000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S25000x64.size a ≤ S50000x64.size a
  hwx3_2 : ∀ i : grid3.Coords, EltTy.bits .f32 = 32 ∨ (Rect.block (s := S50000x64) S25000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S50000x64.size a ≤ S50000x64.size a
  hwx4_0 : ∀ i : grid4.Coords, EltTy.bits .f32 = 32 ∨ (Rect.block (s := S50000x64) S50000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1.size a ≤ S1.size a
  hwx4_2 : ∀ i : grid4.Coords, EltTy.bits .f32 = 32 ∨ (Rect.block (s := S1) S1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S25000x64_S64x64_S25000x64_1_0_0_1_n_n : DotDims S25000x64 S64x64 S25000x64 where
  lhsContracting := [1]
  rhsContracting := [0]
  lhsNonContracting := [0]
  rhsNonContracting := [1]
  lhsBatch := []
  rhsBatch := []
  wf := dot_S25000x64_S64x64_S25000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

abbrev win0_0 : Pipeline.Window sig grid0 :=
  Pipeline.Window.ofSpec (Memref.whole main_arg0) S25000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S25000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S25000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S25000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S25000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S25000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S25000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S25000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S50000x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S1x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S850000, .i32⟩
  | .hbm, ⟨19, _⟩ => ⟨S850000, .i1⟩
  | .hbm, ⟨20, _⟩ => ⟨S_, .i32⟩
  | .hbm, ⟨21, _⟩ => ⟨S850000, .i32⟩
  | .hbm, ⟨22, _⟩ => ⟨S850000, .i32⟩
  | .hbm, ⟨23, _⟩ => ⟨S850000, .i32⟩
  | .hbm, ⟨24, _⟩ => ⟨S850000x1, .i32⟩
  | .hbm, ⟨25, _⟩ => ⟨S_, .f32⟩
  | .hbm, ⟨26, _⟩ => ⟨S850000, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x1, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S_, .f32⟩
  | .hbm, ⟨92, _⟩ => ⟨S50000x64, .f32⟩
  | .hbm, ⟨93, _⟩ => ⟨S50000x64, .f32⟩
  | .hbm, ⟨94, _⟩ => ⟨S50000x1, .f32⟩
  | .hbm, ⟨95, _⟩ => ⟨S1x1, .f32⟩
  | .hbm, ⟨96, _⟩ => ⟨S50000x1, .f32⟩
  | .hbm, ⟨97, _⟩ => ⟨S50000x1, .f32⟩
  | .hbm, ⟨98, _⟩ => ⟨S_, .f32⟩
  | .hbm, ⟨99, _⟩ => ⟨S1, .f32⟩
  | .hbm, ⟨100, _⟩ => ⟨S1x1, .f32⟩
  | .hbm, ⟨101, _⟩ => ⟨S_, .f32⟩
  | .hbm, ⟨102, _⟩ => ⟨S1x1, .f32⟩
  | .hbm, ⟨103, _⟩ => ⟨S1x1, .f32⟩
  | .hbm, ⟨104, _⟩ => ⟨S1x1, .f32⟩
  | .hbm, ⟨105, _⟩ => ⟨S1x1, .f32⟩
  | .hbm, ⟨106, _⟩ => ⟨S_, .f32⟩
  | .hbm, ⟨107, _⟩ => ⟨S1x1, .f32⟩
  | .hbm, ⟨108, _⟩ => ⟨S1x1, .f32⟩
  | .hbm, ⟨109, _⟩ => ⟨S_, .f32⟩
  | .hbm, ⟨110, _⟩ => ⟨S1x1, .f32⟩
  | .hbm, ⟨111, _⟩ => ⟨S1x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call1_cst : Ref sig .tc := ⟨.hbm, 91, rfl⟩
abbrev main_call1_v0 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_14 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S1_d0 : S50000x1.ReducesTo [0] S1
  h_S_ : 0 < S_.numel
  bcast_S_S1x1 : S_.BroadcastsInDim S1x1 (![] : Fin 0 → Fin S1x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x1_S50000x1_1_0_0_1_n_n_wf : DotDims.WF S50000x64 S64x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.RefStages.lean ====
/-
  The reference program's stages, regrouped around the one operation the two programs share: a round of message
  passing over the edges.

  With src and dst the edges' end points (self loops appended) and norm the edge weights, a round gathers row src e of
  the projected features for every edge e, scales it by norm e, and adds it into row dst e of a zero array. Both GCN
  layers of the reference are this one function, applied to the first and to the second projection; the second
  projection is the first layer's dot_general applied to the first layer's output.
-/
import proofs.«116323_j23691039605435_2_alg».proof.Defs
import proofs.«116323_j23691039605435_2_alg».proof.Proof.Gen.ReferenceIdeal.Read

set_option maxRecDepth 16384

noncomputable section

namespace Cert.ReferenceIdeal.RefStages

open Cert.ReferenceIdeal Cert.ReferenceIdeal.Gen Cert.ReferenceIdeal.Read Idealize.ShloMosaic Idealize.ShloMosaic.TcCoe

/-- One round of message passing: gather the rows of `h` at the (wrapped) source nodes, scale each by its edge weight,
    scatter-add them into the rows of a zero array at the destination nodes. -/
def aggregate (h : (⟨S50000x64, .f32⟩ : BufTy).Contents (Elt Ideal)) (src dst : (⟨S850000, .i32⟩ : BufTy).Contents (Elt Ideal))
    (norm : (⟨S850000, .f32⟩ : BufTy).Contents (Elt Ideal)) : (⟨S50000x64, .f32⟩ : BufTy).Contents (Elt Ideal) :=
  Host.scatterAdd (F := Ideal) scatter_S50000x64_S850000x1_S850000x64_1_0_0_1
    (broadcastInDim S50000x64 ![] bcast_S_S50000x64 (constant (F := Ideal) S_ .f32 0x00000000#32))
    (broadcastInDim S850000x1 ![0] bcast_S850000_S850000x1_0 dst)
    (mulf (F := Ideal)
      (Host.gather gather_S50000x64_S850000x1_S850000x64_1_0_n_n_0_1_164 h
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src)))
      (broadcastInDim S850000x64 ![0, 1] bcast_S850000x1_S850000x64_0_1 (broadcastInDim S850000x1 ![0] bcast_S850000_S850000x1_0 norm)))

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal))

/-- The first layer's aggregation is a round of message passing over the first projection. -/
theorem v45_eq : val_main_v45 (F := Ideal) x0 x1 x2
    = aggregate (val_main_v32 (F := Ideal) x0 x2) (val_main_v3 (F := Ideal) x1) (val_main_v6 (F := Ideal) x1) (val_main_v31 (F := Ideal) x1) := rfl

/-- The second projection is the first layer's dot_general at the first layer's output. -/
theorem v50_eq : val_main_v50 (F := Ideal) x0 x1 x2 x3 x4 = val_main_v32 (F := Ideal) (val_main_v49 (F := Ideal) x0 x1 x2 x3) x4 := rfl

/-- The second layer's aggregation is a round of message passing over the second projection. -/
theorem v63_eq : val_main_v63 (F := Ideal) x0 x1 x2 x3 x4
    = aggregate (val_main_v50 (F := Ideal) x0 x1 x2 x3 x4) (val_main_v3 (F := Ideal) x1) (val_main_v6 (F := Ideal) x1) (val_main_v31 (F := Ideal) x1) := rfl

end Cert.ReferenceIdeal.RefStages

end
-- ==== Proof.LinearRegions.lean ====
/-
  The two linear layers' projections: h @ W, computed by the kernel in two row blocks of 25000 rows.

  Each grid point t multiplies rows [25000 t, 25000 t + 25000) of the node features by the whole 64 x 64 weight, so
  entry (r, q) of its block is the sum over k of feature (25000 t + r, k) times weight (k, q): entry (25000 t + r, q) of
  the whole product. The two blocks tile the 50000 rows, so the array the region leaves is the whole product, which
  is what the reference's one dot_general computes, entry by entry.
-/
import proofs.«116323_j23691039605435_2_alg».proof.Proof.Gen.KernelIdeal.Frame
import proofs.«116323_j23691039605435_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.Pipeline (Dat)

/-- The kernel's contraction index sets: row `j 0` of the block with column `k`, and row `k` of the weight with column `j 1`. -/
abbrev lrow (j : S25000x64.Idx) (k : Fin 64) : S25000x64.Idx := fun a => match a with
  | ⟨0, _⟩ => ⟨(j 0).val, (j 0).isLt⟩
  | ⟨1, _⟩ => ⟨k.val, k.isLt⟩
abbrev rcol (j : S25000x64.Idx) (k : Fin 64) : S64x64.Idx := fun a => match a with
  | ⟨0, _⟩ => ⟨k.val, k.isLt⟩
  | ⟨1, _⟩ => ⟨(j 1).val, (j 1).isLt⟩

theorem lhs0 (i : S25000x64.Idx) (q : dot_S25000x64_S64x64_S25000x64_1_0_0_1_n_n.contr.Idx) :
    (dot_S25000x64_S64x64_S25000x64_1_0_0_1_n_n.lhsIdx i q 0).val = (i 0).val := by
  unfold DotDims.lhsIdx
  rw [dif_neg (show ¬(0 : Fin S25000x64.rank) ∈ dot_S25000x64_S64x64_S25000x64_1_0_0_1_n_n.lhsBatch by decide), dif_pos (show (0 : Fin S25000x64.rank) ∈ dot_S25000x64_S64x64_S25000x64_1_0_0_1_n_n.lhsNonContracting by decide)]
  rfl
theorem lhs1 (i : S25000x64.Idx) (q : dot_S25000x64_S64x64_S25000x64_1_0_0_1_n_n.contr.Idx) :
    (dot_S25000x64_S64x64_S25000x64_1_0_0_1_n_n.lhsIdx i q 1).val = (q ⟨0, by decide⟩).val :=
  dot_S25000x64_S64x64_S25000x64_1_0_0_1_n_n.lhsIdx_val_of_single rfl i q
theorem rhs0 (i : S25000x64.Idx) (q : dot_S25000x64_S64x64_S25000x64_1_0_0_1_n_n.contr.Idx) :
    (dot_S25000x64_S64x64_S25000x64_1_0_0_1_n_n.rhsIdx i q 0).val = (q ⟨0, by decide⟩).val :=
  dot_S25000x64_S64x64_S25000x64_1_0_0_1_n_n.rhsIdx_val_of_single rfl i q
theorem rhs1 (i : S25000x64.Idx) (q : dot_S25000x64_S64x64_S25000x64_1_0_0_1_n_n.contr.Idx) :
    (dot_S25000x64_S64x64_S25000x64_1_0_0_1_n_n.rhsIdx i q 1).val = (i 1).val := by
  unfold DotDims.rhsIdx
  rw [dif_neg (show ¬(1 : Fin S64x64.rank) ∈ dot_S25000x64_S64x64_S25000x64_1_0_0_1_n_n.rhsBatch by decide), dif_pos (show (1 : Fin S64x64.rank) ∈ dot_S25000x64_S64x64_S25000x64_1_0_0_1_n_n.rhsNonContracting by decide)]
  rfl

/-- A block's product into a zero accumulator, entry by entry, on the extended reals. -/
theorem blockProduct_apply (a : FVec Ideal S25000x64 .f32) (w : FVec Ideal S64x64 .f32) (j : S25000x64.Idx) :
    matmul dot_S25000x64_S64x64_S25000x64_1_0_0_1_n_n none a w (constant S25000x64 .f32 0x00000000#32) j
      = ∑ k : Fin 64, a (lrow j k) * w (rcol j k) := by
  show FloatOps.matmul dot_S25000x64_S64x64_S25000x64_1_0_0_1_n_n none a w (constant S25000x64 .f32 0x00000000#32) j = _
  rw [Ideal.matmul_constant_zero_apply, ← Equiv.sum_comp (ValueIdx.contrEquiv1 dot_S25000x64_S64x64_S25000x64_1_0_0_1_n_n 64 rfl rfl).symm]
  refine Finset.sum_congr rfl fun k _ => ?_
  have hk := ValueIdx.contrEquiv1_symm_val dot_S25000x64_S64x64_S25000x64_1_0_0_1_n_n 64 rfl rfl k
  have el : dot_S25000x64_S64x64_S25000x64_1_0_0_1_n_n.lhsIdx j ((ValueIdx.contrEquiv1 dot_S25000x64_S64x64_S25000x64_1_0_0_1_n_n 64 rfl rfl).symm k) = lrow j k := funext fun a => Fin.ext (by
    match a with
    | ⟨0, _⟩ => exact lhs0 _ _
    | ⟨1, _⟩ => exact (lhs1 _ _).trans hk)
  have er : dot_S25000x64_S64x64_S25000x64_1_0_0_1_n_n.rhsIdx j ((ValueIdx.contrEquiv1 dot_S25000x64_S64x64_S25000x64_1_0_0_1_n_n 64 rfl rfl).symm k) = rcol j k := funext fun a => Fin.ext (by
    match a with
    | ⟨0, _⟩ => exact (rhs0 _ _).trans hk
    | ⟨1, _⟩ => exact rhs1 _ _)
  rw [el, er]

/-- The second layer's payload casts its block to its own shape first: the same product. -/
theorem pay2_apply (v0 : Vec Ideal S25000x64 .f32) (v2 : Vec Ideal S64x64 .f32) (j : S25000x64.Idx) :
    k2_pay1 v0 v2 j = ∑ k : Fin 64, v0 (lrow j k) * v2 (rcol j k) := by
  unfold k2_pay1
  show matmul (F := Ideal) dot_S25000x64_S64x64_S25000x64_1_0_0_1_n_n none (shapeCast S25000x64 v0 shapeCasts_S25000x64_S25000x64) v2 (constant S25000x64 .f32 0x00000000#32) j = _
  rw [shapeCast_self]
  exact blockProduct_apply v0 v2 j

theorem hz : (![0, 0] : Fin 2 → Nat) = fun _ => 0 := funext fun a => by fin_cases a <;> rfl

section Region0
variable (V : (c : Dev nD) → (b : Ref sig .tc) → Buf (Elt Ideal) ((c : Thread nD τ).loc b))

theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 1 :=
  (by decide +kernel : ∀ t : Fin grid0.N, _)

theorem flushed0 (c : Dev nD) (t : Fin cfg0.N) :
    (dat0 (F := Ideal) V c).flushed 2 t = ((cfg0.win 2).blk t).view.read (Elt Ideal)
      (Cert.ReferenceIdeal.Read.val_main_v32 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S25000x64) hz, View.ld_unit_zero (S := S64x64) hz]
  funext j
  show k0_pay1 (iblk0 V c 0 t) (iblk0 V c 1 t) j
    = Cert.ReferenceIdeal.Read.val_main_v32 (F := Ideal) (V c main_arg0) (V c main_arg2) (((cfg0.win 2).blk t).view.emb j)
  rw [Cert.ReferenceIdeal.Read.val_main_v32_apply]
  unfold k0_pay1
  refine (blockProduct_apply (iblk0 V c 0 t) (iblk0 V c 1 t) j).trans ?_
  obtain ⟨e0, e1, e2, e3, e4, e5⟩ := idx_facts0 t
  refine Finset.sum_congr rfl fun k _ => ?_
  have h0 : iblk0 V c 0 t (lrow j k)
      = V c main_arg0 (Cert.ReferenceIdeal.Read.lidx_main_v32 (((cfg0.win 2).blk t).view.emb j) k) := by
    show V c main_arg0 (((cfg0.win 0).blk t).view.emb (lrow j k)) = _
    refine congrArg (V c main_arg0) (funext fun a => Fin.ext ?_)
    match a with
    | ⟨0, _⟩ => show win0_0.index t (0 : Fin 2) * 25000 + 1 * (j 0).val = win0_2.index t (0 : Fin 2) * 25000 + 1 * (j 0).val; omega
    | ⟨1, _⟩ => show win0_0.index t (1 : Fin 2) * 64 + 1 * k.val = k.val; omega
  have h1 : iblk0 V c 1 t (rcol j k)
      = V c main_arg2 (Cert.ReferenceIdeal.Read.ridx_main_v32 (((cfg0.win 2).blk t).view.emb j) k) := by
    show V c main_arg2 (((cfg0.win 1).blk t).view.emb (rcol j k)) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [h0, h1]

theorem mem_blk0 (t : Fin cfg0.N) (i : S50000x64.Idx) :
    i ∈ ((cfg0.win 2).blk t).view.set ↔ ∀ a : Fin 2, win0_2.index t a * S25000x64.size a ≤ (i a).val ∧ (i a).val < win0_2.index t a * S25000x64.size a + S25000x64.size a := by
  show i ∈ ((View.whole main_v32).slice (win0_2.rect t)).set ↔ _
  rw [View.set_slice_whole, Rect.mem_set_unit]
  exact Iff.rfl

theorem idx_onto0 : ∀ q0 : Fin 2, ∃ t : Fin cfg0.N, win0_2.index t = ![q0.val, 0] :=
  (by decide +kernel : ∀ q0 : Fin 2, ∃ t : Fin grid0.N, win0_2.index t = ![q0.val, 0])

/-- Row `r` lies in the block of point `r / 25000`: the two blocks tile the array. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto0 ⟨(i 0).val / 25000, by omega⟩
  have q0 : win0_2.index t (0 : Fin 2) = (i 0).val / 25000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 25000 ≤ (i 0).val ∧ (i 0).val < win0_2.index t (0 : Fin 2) * 25000 + 25000; omega
  | ⟨1, _⟩ => show win0_2.index t (1 : Fin 2) * 64 ≤ (i 1).val ∧ (i 1).val < win0_2.index t (1 : Fin 2) * 64 + 64; omega

/-- THE ARRAY region 0 leaves: the whole product of the two arrays it read, as the reference's dot_general states it. -/
theorem product0 (c : Dev nD) : (dat0 (F := Ideal) V c).arrAt 2 cfg0.N
    = Cert.ReferenceIdeal.Read.val_main_v32 (F := Ideal) (V c main_arg0) (V c main_arg2) :=
  (dat0 V c).arrAt_eq_of_cover 2 _ (fun t _ => flushed0 V c t) cover0

end Region0

section Region2
variable (V : (c : Dev nD) → (b : Ref sig .tc) → Buf (Elt Ideal) ((c : Thread nD τ).loc b))

theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 1 :=
  (by decide +kernel : ∀ t : Fin grid2.N, _)

theorem flushed2 (c : Dev nD) (t : Fin cfg2.N) :
    (dat2 (F := Ideal) V c).flushed 2 t = ((cfg2.win 2).blk t).view.read (Elt Ideal)
      (Cert.ReferenceIdeal.Read.val_main_v32 (F := Ideal) (V c main_v46) (V c main_arg4)) := by
  show (cfg2.win 2).cut (grid2.coords t) ((dat2 V c).after 2 t) = _
  rw [after2_2]
  unfold out2_2
  rw [View.canon_unit_zero hz]
  simp only [View.ld_unit_zero (S := S25000x64) hz, View.ld_unit_zero (S := S64x64) hz]
  funext j
  show k2_pay1 (iblk2 V c 0 t) (iblk2 V c 1 t) j
    = Cert.ReferenceIdeal.Read.val_main_v32 (F := Ideal) (V c main_v46) (V c main_arg4) (((cfg2.win 2).blk t).view.emb j)
  rw [Cert.ReferenceIdeal.Read.val_main_v32_apply]
  refine (pay2_apply (iblk2 V c 0 t) (iblk2 V c 1 t) j).trans ?_
  obtain ⟨e0, e1, e2, e3, e4, e5⟩ := idx_facts2 t
  refine Finset.sum_congr rfl fun k _ => ?_
  have h0 : iblk2 V c 0 t (lrow j k)
      = V c main_v46 (Cert.ReferenceIdeal.Read.lidx_main_v32 (((cfg2.win 2).blk t).view.emb j) k) := by
    show V c main_v46 (((cfg2.win 0).blk t).view.emb (lrow j k)) = _
    refine congrArg (V c main_v46) (funext fun a => Fin.ext ?_)
    match a with
    | ⟨0, _⟩ => show win2_0.index t (0 : Fin 2) * 25000 + 1 * (j 0).val = win2_2.index t (0 : Fin 2) * 25000 + 1 * (j 0).val; omega
    | ⟨1, _⟩ => show win2_0.index t (1 : Fin 2) * 64 + 1 * k.val = k.val; omega
  have h1 : iblk2 V c 1 t (rcol j k)
      = V c main_arg4 (Cert.ReferenceIdeal.Read.ridx_main_v32 (((cfg2.win 2).blk t).view.emb j) k) := by
    show V c main_arg4 (((cfg2.win 1).blk t).view.emb (rcol j k)) = _
    refine congrArg (V c main_arg4) (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  rw [h0, h1]

theorem mem_blk2 (t : Fin cfg2.N) (i : S50000x64.Idx) :
    i ∈ ((cfg2.win 2).blk t).view.set ↔ ∀ a : Fin 2, win2_2.index t a * S25000x64.size a ≤ (i a).val ∧ (i a).val < win2_2.index t a * S25000x64.size a + S25000x64.size a := by
  show i ∈ ((View.whole main_v47).slice (win2_2.rect t)).set ↔ _
  rw [View.set_slice_whole, Rect.mem_set_unit]
  exact Iff.rfl

theorem idx_onto2 : ∀ q0 : Fin 2, ∃ t : Fin cfg2.N, win2_2.index t = ![q0.val, 0] :=
  (by decide +kernel : ∀ q0 : Fin 2, ∃ t : Fin grid2.N, win2_2.index t = ![q0.val, 0])

/-- Row `r` lies in the block of point `r / 25000`: the two blocks tile the array. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto2 ⟨(i 0).val / 25000, by omega⟩
  have q0 : win2_2.index t (0 : Fin 2) = (i 0).val / 25000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 25000 ≤ (i 0).val ∧ (i 0).val < win2_2.index t (0 : Fin 2) * 25000 + 25000; omega
  | ⟨1, _⟩ => show win2_2.index t (1 : Fin 2) * 64 ≤ (i 1).val ∧ (i 1).val < win2_2.index t (1 : Fin 2) * 64 + 64; omega

/-- THE ARRAY region 2 leaves: the whole product of the two arrays it read, as the reference's dot_general states it. -/
theorem product2 (c : Dev nD) : (dat2 (F := Ideal) V c).arrAt 2 cfg2.N
    = Cert.ReferenceIdeal.Read.val_main_v32 (F := Ideal) (V c main_v46) (V c main_arg4) :=
  (dat2 V c).arrAt_eq_of_cover 2 _ (fun t _ => flushed2 V c t) cover2

end Region2

end Cert.KernelIdeal.Linear

end
-- ==== Proof.BiasRelu.lean ====
/-
  The bias and the rectifier after each aggregation: relu (agg + b), the bias added along rows.

  The kernel does this on two row blocks of 25000 rows, each block reading the whole bias row; entry (r, q) of a block
  is max (agg (25000 t + r, q) + b q, 0), which is entry (25000 t + r, q) of the reference's three host operations
  (broadcast of the bias to every row, add, maximum with the zero splat). The two blocks tile the 50000 rows.
-/
import proofs.«116323_j23691039605435_2_alg».proof.Proof.Gen.KernelIdeal.Frame
import proofs.«116323_j23691039605435_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu

open Cert.KernelIdeal Cert.KernelIdeal.Gen Idealize.ShloMosaic Idealize.ShloMosaic.TcCoe Idealize.SL.Sem
open Idealize.ShloMosaic.Pipeline (Dat)
open Idealize.ShloMosaic.ValueIdx

/-- relu (a + b): the reference's broadcast of the bias over the rows, its add and its maximum with zero. -/
def biasRelu (a : FVec Ideal Cert.ReferenceIdeal.S50000x64 .f32) (b : FVec Ideal Cert.ReferenceIdeal.S64 .f32) :
    FVec Ideal Cert.ReferenceIdeal.S50000x64 .f32 :=
  maximumf (F := Ideal) (addf (F := Ideal) a (Cert.ReferenceIdeal.Read.val_main_v47 (F := Ideal) b)) (Cert.ReferenceIdeal.Read.val_main_call0_v0 (F := Ideal))

/-- Entry (p, q) of relu (a + b). -/
theorem biasRelu_apply (a : FVec Ideal Cert.ReferenceIdeal.S50000x64 .f32) (b : FVec Ideal Cert.ReferenceIdeal.S64 .f32)
    (p : Fin 50000) (q : Fin 64) :
    biasRelu a b (ix2 p q) = max (a (ix2 p q) + b (ix1 q)) 0 := by
  show FloatOps.maximumf (F := Ideal) (φ := .f32) (FloatOps.addf (F := Ideal) (φ := .f32) (a (ix2 p q)) (Cert.ReferenceIdeal.Read.val_main_v47 (F := Ideal) b (ix2 p q)))
    (Cert.ReferenceIdeal.Read.val_main_call0_v0 (F := Ideal) (ix2 p q)) = _
  rw [Cert.ReferenceIdeal.Read.val_main_v47_apply, Cert.ReferenceIdeal.Read.val_main_v46_apply,
    Cert.ReferenceIdeal.Read.val_main_call0_v0_apply, Cert.ReferenceIdeal.Read.val_main_call0_cst_apply]
  have e : Cert.ReferenceIdeal.Read.idx_main_v46 (Cert.ReferenceIdeal.Read.idx_main_v47 (ix2 p q)) = ix1 q :=
    funext fun d => Fin.ext (by match d with | ⟨0, _⟩ => rfl)
  rw [e]
  show max (a (ix2 p q) + b (ix1 q)) (Ideal.ofBits .f32 0x00000000#32) = _
  rw [Ideal.ofBits_zero_f32]

theorem hz2 : (![0, 0] : Fin 2 → Nat) = fun _ => 0 := funext fun a => by fin_cases a <;> rfl
theorem hz1 : (![0] : Fin 1 → Nat) = fun _ => 0 := funext fun a => by fin_cases a; rfl

section Region1
variable (V : (c : Dev nD) → (b : Ref sig .tc) → Buf (Elt Ideal) ((c : Thread nD τ).loc b))

/-- Entry (p, q) of what the body stores: the block entry plus the bias entry, cut off below at zero. -/
theorem pay1_apply (v0 : FVec Ideal S25000x64 .f32) (v2 : FVec Ideal S64 .f32) (p : Fin 25000) (q : Fin 64) :
    k1_pay1 (F := Ideal) v0 v2 (ix2 p q) = max (v0 (ix2 p q) + v2 (ix1 q)) 0 := by
  unfold k1_pay1
  show FloatOps.maximumf (F := Ideal) (φ := .f32) (FloatOps.addf (F := Ideal) (φ := .f32) (shapeCast S25000x64 v0 shapeCasts_S25000x64_S25000x64 (ix2 p q))
    (broadcastTo S25000x64 (shapeCast S1x64 v2 shapeCasts_S64_S1x64) broadcasts_S1x64_S25000x64 (ix2 p q))) (Scalar.ofBits (F := Ideal) .f32 0x00000000#32) = _
  rw [shapeCast_self, broadcastTo_1b_ab_apply, shapeCast_a_1a_apply]
  show max (v0 (ix2 p q) + v2 (ix1 q)) (Ideal.ofBits .f32 0x00000000#32) = _
  rw [Ideal.ofBits_zero_f32]

theorem idx_facts1 : ∀ t : Fin cfg1.N, win1_0.index t (0 : Fin 2) = win1_2.index t (0 : Fin 2)
    ∧ win1_0.index t (1 : Fin 2) = 0 ∧ win1_1.index t (0 : Fin 1) = 0
    ∧ win1_2.index t (1 : Fin 2) = 0 ∧ win1_2.index t (0 : Fin 2) ≤ 1 :=
  (by decide +kernel : ∀ t : Fin grid1.N, _)

theorem flushed1 (c : Dev nD) (t : Fin cfg1.N) :
    (dat1 (F := Ideal) V c).flushed 2 t = ((cfg1.win 2).blk t).view.read (Elt Ideal) (biasRelu (V c main_v45) (V c main_arg3)) := by
  show (cfg1.win 2).cut (grid1.coords t) ((dat1 V c).after 2 t) = _
  rw [after1_2]
  unfold out1_2
  rw [View.canon_unit_zero hz2]
  simp only [View.ld_unit_zero (S := S25000x64) hz2, View.ld_unit_zero (S := S64) hz1]
  funext j
  show k1_pay1 (iblk1 V c 0 t) (iblk1 V c 1 t) j = biasRelu (V c main_v45) (V c main_arg3) (((cfg1.win 2).blk t).view.emb j)
  obtain ⟨p, q, rfl⟩ : ∃ (p : Fin 25000) (q : Fin 64), j = ix2 p q := ⟨j 0, j 1, eq_ix2 j⟩
  obtain ⟨e0, e1, e2, e3, e4⟩ := idx_facts1 t
  have hp : win1_2.index t (0 : Fin 2) * 25000 + p.val < 50000 := by have := p.isLt; omega
  have hemb : ((cfg1.win 2).blk t).view.emb (ix2 p q) = ix2 (⟨win1_2.index t (0 : Fin 2) * 25000 + p.val, hp⟩ : Fin 50000) q :=
    funext fun a => Fin.ext (by
      match a with
      | ⟨0, _⟩ => show win1_2.index t (0 : Fin 2) * 25000 + 1 * p.val = win1_2.index t (0 : Fin 2) * 25000 + p.val; omega
      | ⟨1, _⟩ => show win1_2.index t (1 : Fin 2) * 64 + 1 * q.val = q.val; omega)
  rw [hemb, biasRelu_apply, pay1_apply (iblk1 V c 0 t) (iblk1 V c 1 t) p q]
  have h0 : iblk1 V c 0 t (ix2 p q) = V c main_v45 (ix2 (⟨win1_2.index t (0 : Fin 2) * 25000 + p.val, hp⟩ : Fin 50000) q) := by
    show V c main_v45 (((cfg1.win 0).blk t).view.emb (ix2 p q)) = _
    refine congrArg (V c main_v45) (funext fun a => Fin.ext ?_)
    match a with
    | ⟨0, _⟩ => show win1_0.index t (0 : Fin 2) * 25000 + 1 * p.val = win1_2.index t (0 : Fin 2) * 25000 + p.val; omega
    | ⟨1, _⟩ => show win1_0.index t (1 : Fin 2) * 64 + 1 * q.val = q.val; omega
  have h1 : iblk1 V c 1 t (ix1 q) = V c main_arg3 (ix1 q) := by
    show V c main_arg3 (((cfg1.win 1).blk t).view.emb (ix1 q)) = _
    refine congrArg (V c main_arg3) (funext fun a => Fin.ext ?_)
    match a with
    | ⟨0, _⟩ => show win1_1.index t (0 : Fin 1) * 64 + 1 * q.val = q.val; omega
  rw [h0, h1]

theorem mem_blk1 (t : Fin cfg1.N) (i : S50000x64.Idx) :
    i ∈ ((cfg1.win 2).blk t).view.set ↔ ∀ a : Fin 2, win1_2.index t a * S25000x64.size a ≤ (i a).val ∧ (i a).val < win1_2.index t a * S25000x64.size a + S25000x64.size a := by
  show i ∈ ((View.whole main_v46).slice (win1_2.rect t)).set ↔ _
  rw [View.set_slice_whole, Rect.mem_set_unit]
  exact Iff.rfl

theorem idx_onto1 : ∀ q0 : Fin 2, ∃ t : Fin cfg1.N, win1_2.index t = ![q0.val, 0] :=
  (by decide +kernel : ∀ q0 : Fin 2, ∃ t : Fin grid1.N, win1_2.index t = ![q0.val, 0])

/-- Row `r` lies in the block of point `r / 25000`: the two blocks tile the array. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto1 ⟨(i 0).val / 25000, by omega⟩
  have q0 : win1_2.index t (0 : Fin 2) = (i 0).val / 25000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 25000 ≤ (i 0).val ∧ (i 0).val < win1_2.index t (0 : Fin 2) * 25000 + 25000; omega
  | ⟨1, _⟩ => show win1_2.index t (1 : Fin 2) * 64 ≤ (i 1).val ∧ (i 1).val < win1_2.index t (1 : Fin 2) * 64 + 64; omega

/-- THE ARRAY region 1 leaves: relu (agg + b) of the two arrays it read. -/
theorem rectified1 (c : Dev nD) : (dat1 (F := Ideal) V c).arrAt 2 cfg1.N = biasRelu (V c main_v45) (V c main_arg3) :=
  (dat1 V c).arrAt_eq_of_cover 2 _ (fun t _ => flushed1 V c t) cover1

end Region1

section Region3
variable (V : (c : Dev nD) → (b : Ref sig .tc) → Buf (Elt Ideal) ((c : Thread nD τ).loc b))

/-- Entry (p, q) of what the body stores: the block entry plus the bias entry, cut off below at zero. -/
theorem pay3_apply (v0 : FVec Ideal S25000x64 .f32) (v2 : FVec Ideal S64 .f32) (p : Fin 25000) (q : Fin 64) :
    k3_pay1 (F := Ideal) v0 v2 (ix2 p q) = max (v0 (ix2 p q) + v2 (ix1 q)) 0 := by
  unfold k3_pay1
  show FloatOps.maximumf (F := Ideal) (φ := .f32) (FloatOps.addf (F := Ideal) (φ := .f32) (shapeCast S25000x64 v0 shapeCasts_S25000x64_S25000x64 (ix2 p q))
    (broadcastTo S25000x64 (shapeCast S1x64 v2 shapeCasts_S64_S1x64) broadcasts_S1x64_S25000x64 (ix2 p q))) (Scalar.ofBits (F := Ideal) .f32 0x00000000#32) = _
  rw [shapeCast_self, broadcastTo_1b_ab_apply, shapeCast_a_1a_apply]
  show max (v0 (ix2 p q) + v2 (ix1 q)) (Ideal.ofBits .f32 0x00000000#32) = _
  rw [Ideal.ofBits_zero_f32]

theorem idx_facts3 : ∀ t : Fin cfg3.N, win3_0.index t (0 : Fin 2) = win3_2.index t (0 : Fin 2)
    ∧ win3_0.index t (1 : Fin 2) = 0 ∧ win3_1.index t (0 : Fin 1) = 0
    ∧ win3_2.index t (1 : Fin 2) = 0 ∧ win3_2.index t (0 : Fin 2) ≤ 1 :=
  (by decide +kernel : ∀ t : Fin grid3.N, _)

theorem flushed3 (c : Dev nD) (t : Fin cfg3.N) :
    (dat3 (F := Ideal) V c).flushed 2 t = ((cfg3.win 2).blk t).view.read (Elt Ideal) (biasRelu (V c main_v60) (V c main_arg5)) := by
  show (cfg3.win 2).cut (grid3.coords t) ((dat3 V c).after 2 t) = _
  rw [after3_2]
  unfold out3_2
  rw [View.canon_unit_zero hz2]
  simp only [View.ld_unit_zero (S := S25000x64) hz2, View.ld_unit_zero (S := S64) hz1]
  funext j
  show k3_pay1 (iblk3 V c 0 t) (iblk3 V c 1 t) j = biasRelu (V c main_v60) (V c main_arg5) (((cfg3.win 2).blk t).view.emb j)
  obtain ⟨p, q, rfl⟩ : ∃ (p : Fin 25000) (q : Fin 64), j = ix2 p q := ⟨j 0, j 1, eq_ix2 j⟩
  obtain ⟨e0, e1, e2, e3, e4⟩ := idx_facts3 t
  have hp : win3_2.index t (0 : Fin 2) * 25000 + p.val < 50000 := by have := p.isLt; omega
  have hemb : ((cfg3.win 2).blk t).view.emb (ix2 p q) = ix2 (⟨win3_2.index t (0 : Fin 2) * 25000 + p.val, hp⟩ : Fin 50000) q :=
    funext fun a => Fin.ext (by
      match a with
      | ⟨0, _⟩ => show win3_2.index t (0 : Fin 2) * 25000 + 1 * p.val = win3_2.index t (0 : Fin 2) * 25000 + p.val; omega
      | ⟨1, _⟩ => show win3_2.index t (1 : Fin 2) * 64 + 1 * q.val = q.val; omega)
  rw [hemb, biasRelu_apply, pay3_apply (iblk3 V c 0 t) (iblk3 V c 1 t) p q]
  have h0 : iblk3 V c 0 t (ix2 p q) = V c main_v60 (ix2 (⟨win3_2.index t (0 : Fin 2) * 25000 + p.val, hp⟩ : Fin 50000) q) := by
    show V c main_v60 (((cfg3.win 0).blk t).view.emb (ix2 p q)) = _
    refine congrArg (V c main_v60) (funext fun a => Fin.ext ?_)
    match a with
    | ⟨0, _⟩ => show win3_0.index t (0 : Fin 2) * 25000 + 1 * p.val = win3_2.index t (0 : Fin 2) * 25000 + p.val; omega
    | ⟨1, _⟩ => show win3_0.index t (1 : Fin 2) * 64 + 1 * q.val = q.val; omega
  have h1 : iblk3 V c 1 t (ix1 q) = V c main_arg5 (ix1 q) := by
    show V c main_arg5 (((cfg3.win 1).blk t).view.emb (ix1 q)) = _
    refine congrArg (V c main_arg5) (funext fun a => Fin.ext ?_)
    match a with
    | ⟨0, _⟩ => show win3_1.index t (0 : Fin 1) * 64 + 1 * q.val = q.val; omega
  rw [h0, h1]

theorem mem_blk3 (t : Fin cfg3.N) (i : S50000x64.Idx) :
    i ∈ ((cfg3.win 2).blk t).view.set ↔ ∀ a : Fin 2, win3_2.index t a * S25000x64.size a ≤ (i a).val ∧ (i a).val < win3_2.index t a * S25000x64.size a + S25000x64.size a := by
  show i ∈ ((View.whole main_v61).slice (win3_2.rect t)).set ↔ _
  rw [View.set_slice_whole, Rect.mem_set_unit]
  exact Iff.rfl

theorem idx_onto3 : ∀ q0 : Fin 2, ∃ t : Fin cfg3.N, win3_2.index t = ![q0.val, 0] :=
  (by decide +kernel : ∀ q0 : Fin 2, ∃ t : Fin grid3.N, win3_2.index t = ![q0.val, 0])

/-- Row `r` lies in the block of point `r / 25000`: the two blocks tile the array. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto3 ⟨(i 0).val / 25000, by omega⟩
  have q0 : win3_2.index t (0 : Fin 2) = (i 0).val / 25000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 25000 ≤ (i 0).val ∧ (i 0).val < win3_2.index t (0 : Fin 2) * 25000 + 25000; omega
  | ⟨1, _⟩ => show win3_2.index t (1 : Fin 2) * 64 ≤ (i 1).val ∧ (i 1).val < win3_2.index t (1 : Fin 2) * 64 + 64; omega

/-- THE ARRAY region 3 leaves: relu (agg + b) of the two arrays it read. -/
theorem rectified3 (c : Dev nD) : (dat3 (F := Ideal) V c).arrAt 2 cfg3.N = biasRelu (V c main_v60) (V c main_arg5) :=
  (dat3 V c).arrAt_eq_of_cover 2 _ (fun t _ => flushed3 V c t) cover3

end Region3

end Cert.KernelIdeal.BiasRelu

end
-- ==== Proof.HostStretches.lean ====
/-
  The host operations between the kernel's regions, and the buffers they leave alone.

  The first stretch computes, from the edge list alone, the edges' sources and destinations with the self loops
  appended and the edge weights deg^(-1/2)[src] * deg^(-1/2)[dst]: literally the reference's first operations. The
  stretches after the two projections are each one round of message passing (gather, scale, scatter-add) over whatever
  the projection left. No host operation and no region writes an argument array, nor the three edge arrays once
  computed, so each is read at a later boundary as it was first written.
-/
import proofs.«116323_j23691039605435_2_alg».proof.Proof.Gen.KernelIdeal.Frame
import proofs.«116323_j23691039605435_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import proofs.«116323_j23691039605435_2_alg».proof.Proof.RefStages
import Idealize.ShloMosaic.Lib.StableHlo.Run
set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

/-- A buffer that none of a stretch's operations writes holds after the stretch what it held before. -/
macro "host_keep" : tactic => `(tactic| exact StableHlo.after_of_forall_not_mem _ _ (List.forall_iff_forall_mem.mp (by
  simp only [hostOps0, hostOps1, hostOps3, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide))))

/-- The stretch after the first projection is a round of message passing over it, whatever the contents it starts from. -/
theorem round1 (X : Valuation τ sig (Elt Ideal)) :
    StableHlo.after (hostOps1 (F := Ideal)) X (Proc.devRef .tc main_v45)
      = Cert.ReferenceIdeal.RefStages.aggregate (X (Proc.devRef .tc main_v32)) (X (Proc.devRef .tc main_v3))
          (X (Proc.devRef .tc main_v6)) (X (Proc.devRef .tc main_v31)) := by
  after_results_simp
  rfl

/-- The stretch after the second projection is the same round over the second projection. -/
theorem round2 (X : Valuation τ sig (Elt Ideal)) :
    StableHlo.after (hostOps3 (F := Ideal)) X (Proc.devRef .tc main_v60)
      = Cert.ReferenceIdeal.RefStages.aggregate (X (Proc.devRef .tc main_v47)) (X (Proc.devRef .tc main_v3))
          (X (Proc.devRef .tc main_v6)) (X (Proc.devRef .tc main_v31)) := by
  after_results_simp
  rfl

variable (m : (ℓ : Loc nD τ sig) → Buf (Elt Ideal) ℓ) (ρ : Dev nD → PrngReg)

/-- The edges' sources with the self loops appended, as the first stretch leaves them. -/
theorem sources (c : Dev nD) : W1 m ρ c (Proc.devRef .tc main_v3)
    = Cert.ReferenceIdeal.Read.val_main_v3 (F := Ideal) (m ((c : Thread nD τ).loc main_arg1)) := by
  show StableHlo.after (hostOps0 (F := Ideal)) (W0 m ρ c) (Proc.devRef .tc main_v3) = _
  after_results_simp
  rfl

/-- The edges' destinations with the self loops appended. -/
theorem destinations (c : Dev nD) : W1 m ρ c (Proc.devRef .tc main_v6)
    = Cert.ReferenceIdeal.Read.val_main_v6 (F := Ideal) (m ((c : Thread nD τ).loc main_arg1)) := by
  show StableHlo.after (hostOps0 (F := Ideal)) (W0 m ρ c) (Proc.devRef .tc main_v6) = _
  after_results_simp
  rfl

/-- The edge weights. -/
theorem weights (c : Dev nD) : W1 m ρ c (Proc.devRef .tc main_v31)
    = Cert.ReferenceIdeal.Read.val_main_v31 (F := Ideal) (m ((c : Thread nD τ).loc main_arg1)) := by
  show StableHlo.after (hostOps0 (F := Ideal)) (W0 m ρ c) (Proc.devRef .tc main_v31) = _
  after_results_simp
  rfl

theorem kept_main_arg0_W1 (c : Dev nD) : W1 m ρ c (Proc.devRef .tc main_arg0) = m ((c : Thread nD τ).loc main_arg0) :=
  calc W1 m ρ c (Proc.devRef .tc main_arg0)
    _ = W0 m ρ c (Proc.devRef .tc main_arg0) := by host_keep
    _ = m ((c : Thread nD τ).loc main_arg0) := rfl

theorem kept_main_arg2_W1 (c : Dev nD) : W1 m ρ c (Proc.devRef .tc main_arg2) = m ((c : Thread nD τ).loc main_arg2) :=
  calc W1 m ρ c (Proc.devRef .tc main_arg2)
    _ = W0 m ρ c (Proc.devRef .tc main_arg2) := by host_keep
    _ = m ((c : Thread nD τ).loc main_arg2) := rfl

theorem kept_main_arg3_W3 (c : Dev nD) : W3 m ρ c (Proc.devRef .tc main_arg3) = m ((c : Thread nD τ).loc main_arg3) :=
  calc W3 m ρ c (Proc.devRef .tc main_arg3)
    _ = W2 m ρ c (Proc.devRef .tc main_arg3) := by host_keep
    _ = W1 m ρ c (Proc.devRef .tc main_arg3) := W2_of_ne m ρ c main_arg3 (by decide)
    _ = W0 m ρ c (Proc.devRef .tc main_arg3) := by host_keep
    _ = m ((c : Thread nD τ).loc main_arg3) := rfl

theorem kept_main_arg4_W4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keep
    _ = W1 m ρ c (Proc.devRef .tc main_arg4) := W2_of_ne m ρ c main_arg4 (by decide)
    _ = W0 m ρ c (Proc.devRef .tc main_arg4) := by host_keep
    _ = m ((c : Thread nD τ).loc main_arg4) := rfl

theorem kept_main_arg5_W6 (c : Dev nD) : W6 m ρ c (Proc.devRef .tc main_arg5) = m ((c : Thread nD τ).loc main_arg5) :=
  calc W6 m ρ c (Proc.devRef .tc main_arg5)
    _ = W5 m ρ c (Proc.devRef .tc main_arg5) := by host_keep
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := by host_keep
    _ = W1 m ρ c (Proc.devRef .tc main_arg5) := W2_of_ne m ρ c main_arg5 (by decide)
    _ = W0 m ρ c (Proc.devRef .tc main_arg5) := by host_keep
    _ = m ((c : Thread nD τ).loc main_arg5) := rfl

theorem kept_main_arg6_W7 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := by host_keep
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := by host_keep
    _ = W1 m ρ c (Proc.devRef .tc main_arg6) := W2_of_ne m ρ c main_arg6 (by decide)
    _ = W0 m ρ c (Proc.devRef .tc main_arg6) := by host_keep
    _ = m ((c : Thread nD τ).loc main_arg6) := rfl

theorem kept_main_arg7_W7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := by host_keep
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by host_keep
    _ = W1 m ρ c (Proc.devRef .tc main_arg7) := W2_of_ne m ρ c main_arg7 (by decide)
    _ = W0 m ρ c (Proc.devRef .tc main_arg7) := by host_keep
    _ = m ((c : Thread nD τ).loc main_arg7) := rfl

theorem kept_main_v3_W2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem kept_main_v6_W2 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem kept_main_v31_W2 (c : Dev nD) : W2 m ρ c (Proc.devRef .tc main_v31) = W1 m ρ c (Proc.devRef .tc main_v31) :=
  calc W2 m ρ c (Proc.devRef .tc main_v31)
    _ = W1 m ρ c (Proc.devRef .tc main_v31) := W2_of_ne m ρ c main_v31 (by decide)

theorem kept_main_v3_W5 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by host_keep
    _ = W1 m ρ c (Proc.devRef .tc main_v3) := W2_of_ne m ρ c main_v3 (by decide)

theorem kept_main_v6_W5 (c : Dev nD) : W5 m ρ c (Proc.devRef .tc main_v6) = W1 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := by host_keep
    _ = W1 m ρ c (Proc.devRef .tc main_v6) := W2_of_ne m ρ c main_v6 (by decide)

theorem kept_main_v31_W5 (c : Dev nD) : W5 m ρ c (Proc.devRef .tc main_v31) = W1 m ρ c (Proc.devRef .tc main_v31) :=
  calc W5 m ρ c (Proc.devRef .tc main_v31)
    _ = W4 m ρ c (Proc.devRef .tc main_v31) := W5_of_ne m ρ c main_v31 (by decide)
    _ = W3 m ρ c (Proc.devRef .tc main_v31) := W4_of_ne m ρ c main_v31 (by decide)
    _ = W2 m ρ c (Proc.devRef .tc main_v31) := by host_keep
    _ = W1 m ρ c (Proc.devRef .tc main_v31) := W2_of_ne m ρ c main_v31 (by decide)

end Cert.KernelIdeal.Stretch

end
-- ==== Proof.MeanLaw.lean ====
/-
  The one algebraic law between the two programs, on the extended reals, and the three float words it meets.

  One program adds the bias after taking the mean of the N projections, the other adds it to every projection before
  the mean:  (Σ_k p_k) / N + b   against   (Σ_k (p_k + b)) / N.
  Addition of extended reals is commutative and associative, so the second sum splits into Σ_k p_k plus N copies of b
  whatever the p_k are; the quotient by the real N > 0 is the product with the real 1/N, and multiplication by a
  nonnegative finite factor distributes over ANY sum of extended reals; finally (N·b)·(1/N) = b in the reals. Only the
  bias has to be a real number; the projections may be infinite.
-/
import Idealize.ShloMosaic.PureOps.Ideal

noncomputable section

namespace Cert.MeanLaw

open Idealize.ShloMosaic

/-- The word of `+0.0` denotes `0`. -/
theorem ofBits_zero : Ideal.ofBits .f32 0x00000000#32 = 0 := by
  simp [Ideal.ofBits, Ideal.ieee]

/-- The word of `1.0` denotes `1`. -/
theorem ofBits_one : Ideal.ofBits .f32 0x3F800000#32 = 1 := by
  simp [Ideal.ofBits, Ideal.ieee, -EReal.coe_mul]; norm_num

/-- The word of `50000.0`, the number of rows both means divide by, denotes the real `50000`. -/
theorem ofBits_50000 : Ideal.ofBits .f32 0x47435000#32 = ((50000 : ℝ) : EReal) := by
  simp [Ideal.ofBits, Ideal.ieee, -EReal.coe_mul]; norm_num

/-- A sum of `N` copies of a real number, in the extended reals. -/
theorem sum_const_coe (N : ℕ) (b : ℝ) : (∑ _k : Fin N, (b : EReal)) = (((N : ℝ) * b : ℝ) : EReal) := by
  rw [Finset.sum_const, Finset.card_univ, Fintype.card_fin, ← EReal.coe_nsmul, nsmul_eq_mul]

/-- The mean of the shifted terms is the shifted mean: the bias added to every term before the mean, or once after it. -/
theorem mean_shift (N : ℕ) (hN : 0 < N) (p : Fin N → EReal) (b : ℝ) :
    Ideal.div (∑ k : Fin N, (p k + (b : EReal))) (((N : ℝ)) : EReal)
      = Ideal.div (∑ k : Fin N, p k) (((N : ℝ)) : EReal) + (b : EReal) := by
  have hN' : (N : ℝ) ≠ 0 := Nat.cast_ne_zero.mpr hN.ne'
  have hpos : (0 : ℝ) ≤ 1 / (N : ℝ) := by positivity
  rw [Ideal.div_coe hN', Ideal.div_coe hN', Finset.sum_add_distrib, sum_const_coe,
    EReal.right_distrib_of_nonneg_of_ne_top (EReal.coe_nonneg.mpr hpos) (EReal.coe_ne_top _), ← EReal.coe_mul]
  congr 2
  field_simp

end Cert.MeanLaw

end
-- ==== Proof.Readout.lean ====
/-
  The end of both programs: project every node's 64 features to one number, average over the 50000 nodes, add the
  bias, and take the logistic function.

  The kernel does it in one grid point over whole arrays: p_k = sum_q h(k, q) w(q, 0), then (sum_k p_k) / 50000 + b, then
  the logistic function. The reference adds the bias to every p_k first, sums with a zero initial value, divides by
  50000, and spells the logistic function 1 / (1 + exp (-x)). The two means agree by the law of the mean of shifted
  terms (the bias is a real number by the precondition), and the logistic function is that quotient by definition.
-/
import proofs.«116323_j23691039605435_2_alg».proof.Proof.Gen.KernelIdeal.Frame
import proofs.«116323_j23691039605435_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import proofs.«116323_j23691039605435_2_alg».proof.Proof.MeanLaw
set_option maxRecDepth 16384

noncomputable section

namespace Cert.KernelIdeal.Readout

open Cert.KernelIdeal Cert.KernelIdeal.Gen Idealize.ShloMosaic Idealize.ShloMosaic.TcCoe Idealize.SL.Sem
open Idealize.ShloMosaic.Pipeline (Dat)
open Idealize.ShloMosaic.ValueIdx

theorem lhs0 (i : S50000x1.Idx) (q : dot_S50000x64_S64x1_S50000x1_1_0_0_1_n_n.contr.Idx) :
    (dot_S50000x64_S64x1_S50000x1_1_0_0_1_n_n.lhsIdx i q 0).val = (i 0).val := by
  unfold DotDims.lhsIdx
  rw [dif_neg (show ¬(0 : Fin S50000x64.rank) ∈ dot_S50000x64_S64x1_S50000x1_1_0_0_1_n_n.lhsBatch by decide), dif_pos (show (0 : Fin S50000x64.rank) ∈ dot_S50000x64_S64x1_S50000x1_1_0_0_1_n_n.lhsNonContracting by decide)]
  rfl
theorem lhs1 (i : S50000x1.Idx) (q : dot_S50000x64_S64x1_S50000x1_1_0_0_1_n_n.contr.Idx) :
    (dot_S50000x64_S64x1_S50000x1_1_0_0_1_n_n.lhsIdx i q 1).val = (q ⟨0, by decide⟩).val :=
  dot_S50000x64_S64x1_S50000x1_1_0_0_1_n_n.lhsIdx_val_of_single rfl i q
theorem rhs0 (i : S50000x1.Idx) (q : dot_S50000x64_S64x1_S50000x1_1_0_0_1_n_n.contr.Idx) :
    (dot_S50000x64_S64x1_S50000x1_1_0_0_1_n_n.rhsIdx i q 0).val = (q ⟨0, by decide⟩).val :=
  dot_S50000x64_S64x1_S50000x1_1_0_0_1_n_n.rhsIdx_val_of_single rfl i q
theorem rhs1 (i : S50000x1.Idx) (q : dot_S50000x64_S64x1_S50000x1_1_0_0_1_n_n.contr.Idx) :
    (dot_S50000x64_S64x1_S50000x1_1_0_0_1_n_n.rhsIdx i q 1).val = (i 1).val := by
  unfold DotDims.rhsIdx
  rw [dif_neg (show ¬(1 : Fin S64x1.rank) ∈ dot_S50000x64_S64x1_S50000x1_1_0_0_1_n_n.rhsBatch by decide), dif_pos (show (1 : Fin S64x1.rank) ∈ dot_S50000x64_S64x1_S50000x1_1_0_0_1_n_n.rhsNonContracting by decide)]
  rfl

/-- Node `k`'s projection: its 64 features against the one column of the weight. -/
theorem project_apply (a : FVec Ideal S50000x64 .f32) (w : FVec Ideal S64x1 .f32) (k : Fin 50000) (u : Fin 1) :
    matmul (F := Ideal) dot_S50000x64_S64x1_S50000x1_1_0_0_1_n_n none a w (constant S50000x1 .f32 0x00000000#32) (ix2 k u)
      = ∑ q : Fin 64, a (ix2 k q) * w (ix2 q u) := by
  show FloatOps.matmul dot_S50000x64_S64x1_S50000x1_1_0_0_1_n_n none a w (constant S50000x1 .f32 0x00000000#32) (ix2 k u) = _
  rw [Ideal.matmul_constant_zero_apply, ← Equiv.sum_comp (ValueIdx.contrEquiv1 dot_S50000x64_S64x1_S50000x1_1_0_0_1_n_n 64 rfl rfl).symm]
  refine Finset.sum_congr rfl fun q _ => ?_
  have hq := ValueIdx.contrEquiv1_symm_val dot_S50000x64_S64x1_S50000x1_1_0_0_1_n_n 64 rfl rfl q
  have el : dot_S50000x64_S64x1_S50000x1_1_0_0_1_n_n.lhsIdx (ix2 k u) ((ValueIdx.contrEquiv1 dot_S50000x64_S64x1_S50000x1_1_0_0_1_n_n 64 rfl rfl).symm q) = ix2 k q := funext fun a => Fin.ext (by
    match a with
    | ⟨0, _⟩ => exact lhs0 _ _
    | ⟨1, _⟩ => exact (lhs1 _ _).trans hq)
  have er : dot_S50000x64_S64x1_S50000x1_1_0_0_1_n_n.rhsIdx (ix2 k u) ((ValueIdx.contrEquiv1 dot_S50000x64_S64x1_S50000x1_1_0_0_1_n_n 64 rfl rfl).symm q) = ix2 q u := funext fun a => Fin.ext (by
    match a with
    | ⟨0, _⟩ => exact (rhs0 _ _).trans hq
    | ⟨1, _⟩ => exact rhs1 _ _)
  rw [el, er]

/-- The sum over the 50000 nodes of a one-column array. -/
theorem nodeSum_apply (v : FVec Ideal S50000x1 .f32) (hφ : FKind.Formats .f32)
    (hacc : (0x00000000#32 : BitVec 32) = FKind.add.neutral .f32 hφ) (u : Fin 1) :
    multiReduction (F := Ideal) .add [0] S1 v 0x00000000#32 reduces_S50000x1_S1 hφ hacc (ix1 u) = ∑ k : Fin 50000, v (ix2 k u) := by
  refine (Ideal.multiReduction_add_single v 0x00000000#32 reduces_S50000x1_S1 hφ hacc (ix1 u)).trans ?_
  refine Finset.sum_congr rfl fun k _ => congrArg v (funext fun a => Fin.ext ?_)
  match a with
  | ⟨0, _⟩ => rfl
  | ⟨1, _⟩ => rfl

/-- What the kernel stores at its one index: the logistic function of the mean projection plus the bias. -/
theorem pay4_apply (v0 : FVec Ideal S50000x64 .f32) (v2 : FVec Ideal S64x1 .f32) (v8 : FVec Ideal S1 .f32) :
    k4_pay1 (F := Ideal) v0 v2 v8 (ix2 (0 : Fin 1) (0 : Fin 1))
      = Ideal.logistic (Ideal.div (∑ k : Fin 50000, ∑ q : Fin 64, v0 (ix2 k q) * v2 (ix2 q (0 : Fin 1))) (Ideal.ofBits .f32 0x47435000#32)
          + v8 (ix1 (0 : Fin 1))) := by
  unfold k4_pay1
  show Ideal.logistic (Ideal.div (shapeCast S1x1 (multiReduction (F := Ideal) .add [0] S1
      (matmul (F := Ideal) dot_S50000x64_S64x1_S50000x1_1_0_0_1_n_n none (shapeCast S50000x64 v0 shapeCasts_S50000x64_S50000x64) v2 (constant S50000x1 .f32 0x00000000#32))
      0x00000000#32 reduces_S50000x1_S1 (.inl rfl) rfl) shapeCasts_S1_S1x1 (ix2 (0 : Fin 1) (0 : Fin 1))) (Ideal.ofBits .f32 0x47435000#32)
    + shapeCast S1x1 v8 shapeCasts_S1_S1x1 (ix2 (0 : Fin 1) (0 : Fin 1))) = _
  rw [shapeCast_a_1a_apply, shapeCast_a_1a_apply, shapeCast_self]
  refine congrArg (fun s => Ideal.logistic (Ideal.div s (Ideal.ofBits .f32 0x47435000#32) + v8 (ix1 (0 : Fin 1)))) ?_
  refine (nodeSum_apply _ (.inl rfl) rfl (0 : Fin 1)).trans ?_
  exact Finset.sum_congr rfl fun k _ => project_apply v0 v2 k (0 : Fin 1)

variable (x0 : (⟨Cert.ReferenceIdeal.S50000x64, .f32⟩ : BufTy).Contents (Elt Ideal)) (x1 : (⟨Cert.ReferenceIdeal.S2x800000, .i32⟩ : BufTy).Contents (Elt Ideal))
  (x2 : (⟨Cert.ReferenceIdeal.S64x64, .f32⟩ : BufTy).Contents (Elt Ideal)) (x3 : (⟨Cert.ReferenceIdeal.S64, .f32⟩ : BufTy).Contents (Elt Ideal))
  (x4 : (⟨Cert.ReferenceIdeal.S64x64, .f32⟩ : BufTy).Contents (Elt Ideal)) (x5 : (⟨Cert.ReferenceIdeal.S64, .f32⟩ : BufTy).Contents (Elt Ideal))
  (x6 : (⟨Cert.ReferenceIdeal.S64x1, .f32⟩ : BufTy).Contents (Elt Ideal)) (x7 : (⟨Cert.ReferenceIdeal.S1, .f32⟩ : BufTy).Contents (Elt Ideal))

/-- The reference's result at its one index, over the second layer's output `H`: the bias inside the mean, the
    logistic function spelt out. -/
theorem reference_end (β : ℝ) (hβ : x7 (ix1 (0 : Fin 1)) = (β : EReal)) :
    Cert.ReferenceIdeal.Read.val_main_v81 (F := Ideal) x0 x1 x2 x3 x4 x5 x6 x7 (ix2 (0 : Fin 1) (0 : Fin 1))
      = Ideal.div 1 (1 + Ideal.exp (-(Ideal.div (∑ k : Fin 50000,
          ((∑ q : Fin 64, Cert.ReferenceIdeal.Read.val_main_v67 (F := Ideal) x0 x1 x2 x3 x4 x5 (ix2 k q) * x6 (ix2 q (0 : Fin 1))) + (β : EReal)))
          (((50000 : ℝ)) : EReal)))) := by
  rw [Cert.ReferenceIdeal.Read.val_main_v81_apply, Cert.ReferenceIdeal.Read.val_main_v80_apply, Cert.ReferenceIdeal.Read.val_main_cst_15_apply, Cert.ReferenceIdeal.Read.val_main_v79_apply, Cert.ReferenceIdeal.Read.val_main_v78_apply,
    Cert.ReferenceIdeal.Read.val_main_cst_14_apply, Cert.ReferenceIdeal.Read.val_main_v77_apply, Cert.ReferenceIdeal.Read.val_main_v76_apply, Cert.ReferenceIdeal.Read.val_main_v75_apply, Cert.ReferenceIdeal.Read.val_main_v74_apply,
    Cert.ReferenceIdeal.Read.val_main_cst_13_apply, Cert.ReferenceIdeal.Read.val_main_v73_apply, Cert.ReferenceIdeal.Read.val_main_v72_apply, Cert.ReferenceIdeal.Read.val_main_cst_12_apply]
  have hs : ∀ k : Fin 50000, Cert.ReferenceIdeal.Read.val_main_v71 (F := Ideal) x0 x1 x2 x3 x4 x5 x6 x7 (Cert.ReferenceIdeal.Read.idx_main_v72 (Cert.ReferenceIdeal.Read.idx_main_v73 (ix2 (0 : Fin 1) (0 : Fin 1))) k)
      = (∑ q : Fin 64, Cert.ReferenceIdeal.Read.val_main_v67 (F := Ideal) x0 x1 x2 x3 x4 x5 (ix2 k q) * x6 (ix2 q (0 : Fin 1))) + (β : EReal) := by
    intro k
    rw [Cert.ReferenceIdeal.Read.val_main_v71_apply, Cert.ReferenceIdeal.Read.val_main_v70_apply, Cert.ReferenceIdeal.Read.val_main_v69_apply, Cert.ReferenceIdeal.Read.val_main_v68_apply]
    have e7 : Cert.ReferenceIdeal.Read.idx_main_v69 (Cert.ReferenceIdeal.Read.idx_main_v70 (Cert.ReferenceIdeal.Read.idx_main_v72 (Cert.ReferenceIdeal.Read.idx_main_v73 (ix2 (0 : Fin 1) (0 : Fin 1))) k)) = ix1 (0 : Fin 1) :=
      funext fun a => Fin.ext (by match a with | ⟨0, _⟩ => rfl)
    rw [e7, hβ]
    refine congrArg (· + (β : EReal)) (Finset.sum_congr rfl fun q _ => ?_)
    have el : Cert.ReferenceIdeal.Read.lidx_main_v68 (Cert.ReferenceIdeal.Read.idx_main_v72 (Cert.ReferenceIdeal.Read.idx_main_v73 (ix2 (0 : Fin 1) (0 : Fin 1))) k) q = ix2 k q :=
      funext fun a => Fin.ext (by match a with | ⟨0, _⟩ => rfl | ⟨1, _⟩ => rfl)
    have er : Cert.ReferenceIdeal.Read.ridx_main_v68 (Cert.ReferenceIdeal.Read.idx_main_v72 (Cert.ReferenceIdeal.Read.idx_main_v73 (ix2 (0 : Fin 1) (0 : Fin 1))) k) q = ix2 q (0 : Fin 1) :=
      funext fun a => Fin.ext (by match a with | ⟨0, _⟩ => rfl | ⟨1, _⟩ => rfl)
    rw [el, er]
  simp only [hs]
  simp only [Ideal.hostDivf_def, Ideal.addf_def, Ideal.hostUnary_exp_def, Ideal.hostNegf_def, Ideal.negf_def, Ideal.ofBits_def,
    Cert.MeanLaw.ofBits_one, Cert.MeanLaw.ofBits_zero, Cert.MeanLaw.ofBits_50000, zero_add]

theorem hz2 : (![0, 0] : Fin 2 → Nat) = fun _ => 0 := funext fun a => by fin_cases a <;> rfl
theorem hz1 : (![0] : Fin 1 → Nat) = fun _ => 0 := funext fun a => by fin_cases a; rfl

section Region4
variable (V : (c : Dev nD) → (b : Ref sig .tc) → Buf (Elt Ideal) ((c : Thread nD τ).loc b))

theorem idx_facts4 : ∀ t : Fin cfg4.N, win4_0.index t (0 : Fin 2) = 0 ∧ win4_0.index t (1 : Fin 2) = 0
    ∧ win4_1.index t (0 : Fin 2) = 0 ∧ win4_1.index t (1 : Fin 2) = 0 ∧ win4_2.index t (0 : Fin 1) = 0
    ∧ win4_3.index t (0 : Fin 2) = 0 ∧ win4_3.index t (1 : Fin 2) = 0 :=
  (by decide +kernel : ∀ t : Fin grid4.N, _)

theorem flushed4 (c : Dev nD) (t : Fin cfg4.N)
    (hH : V c main_v61 = Cert.ReferenceIdeal.Read.val_main_v67 (F := Ideal) x0 x1 x2 x3 x4 x5) (h6 : V c main_arg6 = x6) (h7 : V c main_arg7 = x7)
    (β : ℝ) (hβ : x7 (ix1 (0 : Fin 1)) = (β : EReal)) :
    (dat4 (F := Ideal) V c).flushed 3 t = ((cfg4.win 3).blk t).view.read (Elt Ideal) (Cert.ReferenceIdeal.Read.val_main_v81 (F := Ideal) x0 x1 x2 x3 x4 x5 x6 x7) := by
  show (cfg4.win 3).cut (grid4.coords t) ((dat4 V c).after 3 t) = _
  rw [after4_3]
  unfold out4_3
  rw [View.canon_unit_zero hz2]
  simp only [View.ld_unit_zero (S := S50000x64) hz2, View.ld_unit_zero (S := S64x1) hz2, View.ld_unit_zero (S := S1) hz1]
  funext j
  show k4_pay1 (iblk4 V c 0 t) (iblk4 V c 1 t) (iblk4 V c 2 t) j = Cert.ReferenceIdeal.Read.val_main_v81 (F := Ideal) x0 x1 x2 x3 x4 x5 x6 x7 (((cfg4.win 3).blk t).view.emb j)
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  obtain ⟨e0, e1, e2, e3, e4, e5, e6⟩ := idx_facts4 t
  have hemb : ((cfg4.win 3).blk t).view.emb (ix2 (0 : Fin 1) (0 : Fin 1)) = ix2 (0 : Fin 1) (0 : Fin 1) :=
    funext fun a => Fin.ext (by
      match a with
      | ⟨0, _⟩ => show win4_3.index t (0 : Fin 2) * 1 + 1 * 0 = 0; omega
      | ⟨1, _⟩ => show win4_3.index t (1 : Fin 2) * 1 + 1 * 0 = 0; omega)
  rw [hemb, pay4_apply (iblk4 V c 0 t) (iblk4 V c 1 t) (iblk4 V c 2 t), reference_end x0 x1 x2 x3 x4 x5 x6 x7 β hβ]
  have b0 : ∀ (k : Fin 50000) (q : Fin 64), iblk4 V c 0 t (ix2 k q) = V c main_v61 (ix2 k q) := fun k q => by
    show V c main_v61 (((cfg4.win 0).blk t).view.emb (ix2 k q)) = _
    refine congrArg (V c main_v61) (funext fun a => Fin.ext ?_)
    match a with
    | ⟨0, _⟩ => show win4_0.index t (0 : Fin 2) * 50000 + 1 * k.val = k.val; omega
    | ⟨1, _⟩ => show win4_0.index t (1 : Fin 2) * 64 + 1 * q.val = q.val; omega
  have b1 : ∀ q : Fin 64, iblk4 V c 1 t (ix2 q (0 : Fin 1)) = V c main_arg6 (ix2 q (0 : Fin 1)) := fun q => by
    show V c main_arg6 (((cfg4.win 1).blk t).view.emb (ix2 q (0 : Fin 1))) = _
    refine congrArg (V c main_arg6) (funext fun a => Fin.ext ?_)
    match a with
    | ⟨0, _⟩ => show win4_1.index t (0 : Fin 2) * 64 + 1 * q.val = q.val; omega
    | ⟨1, _⟩ => show win4_1.index t (1 : Fin 2) * 1 + 1 * 0 = 0; omega
  have b2 : iblk4 V c 2 t (ix1 (0 : Fin 1)) = V c main_arg7 (ix1 (0 : Fin 1)) := by
    show V c main_arg7 (((cfg4.win 2).blk t).view.emb (ix1 (0 : Fin 1))) = _
    refine congrArg (V c main_arg7) (funext fun a => Fin.ext ?_)
    match a with
    | ⟨0, _⟩ => show win4_2.index t (0 : Fin 1) * 1 + 1 * 0 = 0; omega
  simp only [b0, b1, b2]
  rw [hH, h6, h7, hβ, Cert.MeanLaw.ofBits_50000]
  have hmean := Cert.MeanLaw.mean_shift 50000 (by norm_num)
    (fun k : Fin 50000 => ∑ q : Fin 64, Cert.ReferenceIdeal.Read.val_main_v67 (F := Ideal) x0 x1 x2 x3 x4 x5 (ix2 k q) * x6 (ix2 q (0 : Fin 1))) β
  simp only [Nat.cast_ofNat] at hmean
  rw [hmean]
  rfl

theorem mem_blk4 (t : Fin cfg4.N) (i : S1x1.Idx) :
    i ∈ ((cfg4.win 3).blk t).view.set ↔ ∀ a : Fin 2, win4_3.index t a * S1x1.size a ≤ (i a).val ∧ (i a).val < win4_3.index t a * S1x1.size a + S1x1.size a := by
  show i ∈ ((View.whole main_v62).slice (win4_3.rect t)).set ↔ _
  rw [View.set_slice_whole, Rect.mem_set_unit]
  exact Iff.rfl

/-- The one point's block is the whole one-entry array. -/
theorem cover4 (i : S1x1.Idx) : ∃ t : Fin cfg4.N, (cfg4.win 3).flush t = true ∧ i ∈ ((cfg4.win 3).blk t).view.set := by
  have hi0 : (i 0).val < 1 := (i 0).isLt
  have hi1 : (i 1).val < 1 := (i 1).isLt
  obtain ⟨e0, e1, e2, e3, e4, e5, e6⟩ := idx_facts4 t4_0
  refine ⟨t4_0, flush4_3 t4_0, ?_⟩
  rw [mem_blk4]
  intro a
  match a with
  | ⟨0, _⟩ => show win4_3.index t4_0 (0 : Fin 2) * 1 ≤ (i 0).val ∧ (i 0).val < win4_3.index t4_0 (0 : Fin 2) * 1 + 1; omega
  | ⟨1, _⟩ => show win4_3.index t4_0 (1 : Fin 2) * 1 ≤ (i 1).val ∧ (i 1).val < win4_3.index t4_0 (1 : Fin 2) * 1 + 1; omega

/-- THE ARRAY the last region leaves is the reference's result, once the region is entered with the reference's second
    layer output and the two programs' weight and (real) bias. -/
theorem result4 (c : Dev nD)
    (hH : V c main_v61 = Cert.ReferenceIdeal.Read.val_main_v67 (F := Ideal) x0 x1 x2 x3 x4 x5) (h6 : V c main_arg6 = x6) (h7 : V c main_arg7 = x7)
    (β : ℝ) (hβ : x7 (ix1 (0 : Fin 1)) = (β : EReal)) :
    (dat4 (F := Ideal) V c).arrAt 3 cfg4.N = Cert.ReferenceIdeal.Read.val_main_v81 (F := Ideal) x0 x1 x2 x3 x4 x5 x6 x7 :=
  (dat4 V c).arrAt_eq_of_cover 3 _ (fun t _ => flushed4 x0 x1 x2 x3 x4 x5 x6 x7 V c t hH h6 h7 β hβ) cover4

end Region4

end Cert.KernelIdeal.Readout

end
-- ==== Proof.FiniteBias.lean ====
/-
  What the proof uses of the precondition: the final bias is a real number.

  The precondition is the conjunction, over the seven float inputs, of "every entry's absolute value is below +inf". Its
  last conjunct is the one about the one-entry bias of the final projection; an extended real whose absolute value is
  below +inf is neither infinity, hence a real.
-/
import proofs.«116323_j23691039605435_2_alg».proof.Pre_finite_inputs
import Idealize.ShloMosaic.Lib.ReduceAll
import Idealize.ShloMosaic.Lib.ValueIdx
import Idealize.ShloMosaic.PureOps.Ideal.Laws

set_option maxRecDepth 16384

noncomputable section

namespace Cert.Pre_finite_inputs.Finite

open Idealize.ShloMosaic Cert.Pre_finite_inputs Cert.Pre_finite_inputs.Facts

variable [Facts]

instance : Subsingleton S_.Idx := ⟨fun a b => funext fun d => d.elim0⟩

/-- An extended real whose absolute value is below +inf is a real number. -/
theorem real_of_abs_lt_top (x : EReal) (h : max x (-x) < ⊤) : ∃ β : ℝ, x = (β : EReal) := by
  induction x using EReal.rec with
  | bot => simp at h
  | coe r => exact ⟨r, rfl⟩
  | top => simp at h

/-- The word of +inf. -/
theorem ofBits_inf : Ideal.ofBits .f32 0x7F800000#32 = ⊤ := by simp [Ideal.ofBits, Ideal.ieee]

/-- Under the precondition the final bias's one entry is a real number. -/
theorem bias_real (a0 : FVec Ideal S50000x64 .f32) (a1 : IVec S2x800000 32) (a2 : FVec Ideal S64x64 .f32) (a3 : FVec Ideal S64 .f32)
    (a4 : FVec Ideal S64x64 .f32) (a5 : FVec Ideal S64 .f32) (a6 : FVec Ideal S64x1 .f32) (a7 : FVec Ideal S1 .f32)
    (h : fn (F := Ideal) a0 a1 a2 a3 a4 a5 a6 a7 = fun _ => 1#1) :
    ∃ β : ℝ, a7 (ValueIdx.ix1 (0 : Fin 1)) = (β : EReal) := by
  have h0 := congrFun h ValueIdx.ix0
  dsimp only [fn, fn_part1] at h0
  have h1 := (IntOp.andi_eq_one.1 h0).2
  have h2 := Host.reduce_andi_all _ _ _ _ _ h1 (ValueIdx.ix1 (0 : Fin 1))
  have h3 : Ideal.cmp .olt (max (a7 (ValueIdx.ix1 (0 : Fin 1))) (-(a7 (ValueIdx.ix1 (0 : Fin 1))))) (Ideal.ofBits .f32 0x7F800000#32) = 1#1 := h2
  rw [ofBits_inf] at h3
  have h4 : max (a7 (ValueIdx.ix1 (0 : Fin 1))) (-(a7 (ValueIdx.ix1 (0 : Fin 1)))) < ⊤ := by
    by_contra hn
    have hc : Ideal.cmp .olt (max (a7 (ValueIdx.ix1 (0 : Fin 1))) (-(a7 (ValueIdx.ix1 (0 : Fin 1))))) ⊤ = 0#1 := by
      show BitVec.ofBool (decide (max (a7 (ValueIdx.ix1 (0 : Fin 1))) (-(a7 (ValueIdx.ix1 (0 : Fin 1)))) < ⊤)) = 0#1
      rw [decide_eq_false hn]; rfl
    rw [hc] at h3
    exact absurd h3 (by decide)
  exact real_of_abs_lt_top _ h4

end Cert.Pre_finite_inputs.Finite

end
-- ==== Proof.KernelRun.lean ====
/-
  The idealized kernel program's run with its result named.

  Every weakly fair execution of the five regions and the host operations among them terminates without a fault, and
  the final memory holds, at every unscoped buffer, the last boundary's contents: the fold of the host stretches and
  of each region's write-backs from the launch memory. Read at the result buffer this names the program's value; read
  at the argument buffers it gives them back as launched.
-/
import proofs.«116323_j23691039605435_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the whole program: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.ValueRun

end
-- ==== Proof.Bridge.lean ====
/-
  The kernel program's value is the reference's, stage by stage.

  Walking the kernel program's boundaries from the launch: the first region leaves the first projection x W1 (the
  reference's first dot_general); the host stretch after it a round of message passing over that (the reference's
  first aggregation); the next region relu (agg + b1) (the reference's first layer); the next its product with W2; the
  second stretch the second aggregation; the fourth region the second layer; and the last region, whose bias is a real
  number by the precondition, the reference's result. The argument arrays and the three edge arrays are read at each
  boundary as they were first written.
-/
import proofs.«116323_j23691039605435_2_alg».proof.Proof.Gen.KernelIdeal.Frame
import proofs.«116323_j23691039605435_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import proofs.«116323_j23691039605435_2_alg».proof.Proof.RefStages
import proofs.«116323_j23691039605435_2_alg».proof.Proof.LinearRegions
import proofs.«116323_j23691039605435_2_alg».proof.Proof.BiasRelu
import proofs.«116323_j23691039605435_2_alg».proof.Proof.HostStretches
import proofs.«116323_j23691039605435_2_alg».proof.Proof.Readout
import proofs.«116323_j23691039605435_2_alg».proof.Proof.FiniteBias
import proofs.«116323_j23691039605435_2_alg».proof.Proof.KernelRun
import proofs.«116323_j23691039605435_2_alg».proof.Proof.Gen.Pre_finite_inputs
import proofs.«116323_j23691039605435_2_alg».proof.Defs
set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.ValueIdx (ix1)

variable (m : (ℓ : Loc nD τ sig) → Buf (Elt Ideal) ℓ) (ρ : Dev nD → PrngReg) (c : Dev nD)

/-- The first projection. -/
theorem proj1 : W2 m ρ c (Proc.devRef .tc main_v32) = Cert.ReferenceIdeal.Read.val_main_v32 (F := Ideal) (m ((c : Thread nD τ).loc main_arg0)) (m ((c : Thread nD τ).loc main_arg2)) := by
  refine (W2_arr m ρ c 2).trans ((Cert.KernelIdeal.Linear.product0 (V1 m ρ) c).trans ?_)
  rw [show V1 m ρ c main_arg0 = (m ((c : Thread nD τ).loc main_arg0)) from Cert.KernelIdeal.Stretch.kept_main_arg0_W1 m ρ c,
    show V1 m ρ c main_arg2 = (m ((c : Thread nD τ).loc main_arg2)) from Cert.KernelIdeal.Stretch.kept_main_arg2_W1 m ρ c]

/-- The first aggregation. -/
theorem agg1 : W3 m ρ c (Proc.devRef .tc main_v45) = Cert.ReferenceIdeal.Read.val_main_v45 (F := Ideal) (m ((c : Thread nD τ).loc main_arg0)) (m ((c : Thread nD τ).loc main_arg1)) (m ((c : Thread nD τ).loc main_arg2)) := by
  show StableHlo.after (hostOps1 (F := Ideal)) (W2 m ρ c) (Proc.devRef .tc main_v45) = _
  rw [Cert.KernelIdeal.Stretch.round1, proj1 m ρ c, Cert.KernelIdeal.Stretch.kept_main_v3_W2 m ρ c, Cert.KernelIdeal.Stretch.kept_main_v6_W2 m ρ c,
    Cert.KernelIdeal.Stretch.kept_main_v31_W2 m ρ c, Cert.KernelIdeal.Stretch.sources m ρ c, Cert.KernelIdeal.Stretch.destinations m ρ c,
    Cert.KernelIdeal.Stretch.weights m ρ c]
  exact (Cert.ReferenceIdeal.RefStages.v45_eq _ _ _).symm

/-- The first layer's output. -/
theorem layer1 : W4 m ρ c (Proc.devRef .tc main_v46) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) := by
  refine (W4_arr m ρ c 2).trans ((Cert.KernelIdeal.BiasRelu.rectified1 (V3 m ρ) c).trans ?_)
  rw [show V3 m ρ c main_v45 = _ from agg1 m ρ c, show V3 m ρ c main_arg3 = (m ((c : Thread nD τ).loc main_arg3)) from Cert.KernelIdeal.Stretch.kept_main_arg3_W3 m ρ c]
  rfl

/-- The second projection. -/
theorem proj2 : W5 m ρ c (Proc.devRef .tc main_v47) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Cert.KernelIdeal.Linear.product2 (V4 m ρ) c).trans ?_)
  rw [show V4 m ρ c main_v46 = _ from layer1 m ρ c, show V4 m ρ c main_arg4 = (m ((c : Thread nD τ).loc main_arg4)) from Cert.KernelIdeal.Stretch.kept_main_arg4_W4 m ρ c]
  exact (Cert.ReferenceIdeal.RefStages.v50_eq _ _ _ _ _).symm

/-- The second aggregation. -/
theorem agg2 : W6 m ρ c (Proc.devRef .tc main_v60) = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after (hostOps3 (F := Ideal)) (W5 m ρ c) (Proc.devRef .tc main_v60) = _
  rw [Cert.KernelIdeal.Stretch.round2, proj2 m ρ c, Cert.KernelIdeal.Stretch.kept_main_v3_W5 m ρ c, Cert.KernelIdeal.Stretch.kept_main_v6_W5 m ρ c,
    Cert.KernelIdeal.Stretch.kept_main_v31_W5 m ρ c, Cert.KernelIdeal.Stretch.sources m ρ c, Cert.KernelIdeal.Stretch.destinations m ρ c,
    Cert.KernelIdeal.Stretch.weights m ρ c]
  exact (Cert.ReferenceIdeal.RefStages.v63_eq _ _ _ _ _).symm

/-- The second layer's output. -/
theorem layer2 : W7 m ρ c (Proc.devRef .tc main_v61) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((Cert.KernelIdeal.BiasRelu.rectified3 (V6 m ρ) c).trans ?_)
  rw [show V6 m ρ c main_v60 = _ from agg2 m ρ c, show V6 m ρ c main_arg5 = (m ((c : Thread nD τ).loc main_arg5)) from Cert.KernelIdeal.Stretch.kept_main_arg5_W6 m ρ c]
  rfl

/-- The result, when the final bias is a real number. -/
theorem result (β : ℝ) (hβ : (m ((c : Thread nD τ).loc main_arg7)) (ix1 (0 : Fin 1)) = (β : EReal)) :
    W8 m ρ c (Proc.devRef .tc main_v62) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 3).trans (Cert.KernelIdeal.Readout.result4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (V7 m ρ) c (layer2 m ρ c)
    (Cert.KernelIdeal.Stretch.kept_main_arg6_W7 m ρ c) (Cert.KernelIdeal.Stretch.kept_main_arg7_W7 m ρ c) β hβ)

/-- The idealized kernel program runs, and ends with the reference's last stage of its own arguments in its result
    buffer and its arguments unchanged. -/
theorem kernel_run (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v62) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run (defs (F := Ideal)) _ _).mono (fun r h c => ?_) (Cert.KernelIdeal.ValueRun.run_result (F := Ideal) m ρ)
  obtain ⟨β, hβ⟩ := Cert.Pre_finite_inputs.Finite.bias_real _ _ _ _ _ _ _ _ (hpre c)
  exact ⟨(h c).1.trans (result m ρ c β hβ), (h c).2⟩

end Cert.KernelIdeal.Bridge

end
-- ==== Proof.lean ====
/-
  Two GCN layers, a final projection, the mean over the nodes and the logistic function: the kernel against its jnp
  reference, on the extended reals.

  Both programs compute the same edge arrays (sources, destinations, weights) with the same host operations and share
  the gather / scatter-add of each layer. The kernel replaces the reference's two dot_generals by row-blocked matrix
  products (Proof/LinearRegions.lean), its two bias-and-rectifier steps by row-blocked pointwise kernels
  (Proof/BiasRelu.lean), and its end by one kernel that adds the bias after the mean where the reference adds it
  before (Proof/Readout.lean over Proof/MeanLaw.lean; the only place the precondition is used, for the bias alone:
  Proof/FiniteBias.lean). Proof/HostStretches.lean reads the host operations between the regions, Proof/KernelRun.lean
  states the kernel program's run with its result named, and Proof/Bridge.lean walks the boundaries, identifying each
  with a stage of the reference (Proof/RefStages.lean). The three frames are the generated ones (the reference's is its
  generated run with the result dropped); the ideal pass rewrote nothing, so the kernel's idealization is its own text.
-/
import proofs.«116323_j23691039605435_2_alg».proof.Defs
import proofs.«116323_j23691039605435_2_alg».proof.Proof.Gen.Kernel
import proofs.«116323_j23691039605435_2_alg».proof.Proof.Gen.Kernel.Frame
import proofs.«116323_j23691039605435_2_alg».proof.Proof.Gen.KernelIdeal
import proofs.«116323_j23691039605435_2_alg».proof.Proof.Gen.KernelIdeal.Frame
import proofs.«116323_j23691039605435_2_alg».proof.Proof.Gen.ReferenceIdeal
import proofs.«116323_j23691039605435_2_alg».proof.Proof.Gen.ReferenceIdeal.Run
import proofs.«116323_j23691039605435_2_alg».proof.Proof.Gen.ReferenceIdeal.Read
import proofs.«116323_j23691039605435_2_alg».proof.Proof.Gen.Pre_finite_inputs
import proofs.«116323_j23691039605435_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the reference's last stage of those arguments. -/
theorem algebraic : Cert.algebraic_KernelIdeal_ReferenceIdeal := by
  intro m ρ m' ρ' hpre hagree
  refine ⟨fun c => Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Bridge.kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v81_eq]
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
